-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S8x200x512 .f32) (main_arg1 : FVec F S8x50x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x200x512 : Shape := ⟨3, ![8, 200, 512]⟩
abbrev S8x50x512 : Shape := ⟨3, ![8, 50, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S8x200x50x500 : Shape := ⟨4, ![8, 200, 50, 500]⟩
abbrev S1x40x512 : Shape := ⟨3, ![1, 40, 512]⟩
abbrev S1x50x512 : Shape := ⟨3, ![1, 50, 512]⟩
abbrev S1x40x50x500 : Shape := ⟨4, ![1, 40, 50, 500]⟩
abbrev S40x512 : Shape := ⟨2, ![40, 512]⟩
abbrev S50x512 : Shape := ⟨2, ![50, 512]⟩
abbrev S1x512 : Shape := ⟨2, ![1, 512]⟩
abbrev S40x1x512 : Shape := ⟨3, ![40, 1, 512]⟩
abbrev S40x50x512 : Shape := ⟨3, ![40, 50, 512]⟩
abbrev S2000x512 : Shape := ⟨2, ![2000, 512]⟩
abbrev S512x500 : Shape := ⟨2, ![512, 500]⟩
abbrev S2000x500 : Shape := ⟨2, ![2000, 500]⟩
abbrev S40x50x500 : Shape := ⟨3, ![40, 50, 500]⟩
abbrev S1x1x500 : Shape := ⟨3, ![1, 1, 500]⟩

abbrev nBuf : Space → Nat
  | .hbm => 9
  | .vmem => 12
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x200x50x500, .f32⟩
  | .local _ .vmem, ⟨0, _⟩ => ⟨S1x40x512, .f32⟩
  | .local _ .vmem, ⟨1, _⟩ => ⟨S1x40x512, .f32⟩
  | .local _ .vmem, ⟨2, _⟩ => ⟨S1x50x512, .f32⟩
  | .local _ .vmem, ⟨3, _⟩ => ⟨S1x50x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S500x512, .f32⟩
  | .local _ .vmem, ⟨9, _⟩ => ⟨S500, .f32⟩
  | .local _ .vmem, ⟨10, _⟩ => ⟨S1x40x50x500, .f32⟩
  | .local _ .vmem, ⟨11, _⟩ => ⟨S1x40x50x500, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S500x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x40x50x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  inb_S512x512_S512x512_0_0 : ∀ a, (![0, 0] : Fin 2 → Nat) a + S512x512.size a ≤ S512x512.size a
  h_S512x512 : 0 < S512x512.numel
  inb_S500x512_S500x512_0_0 : ∀ a, (![0, 0] : Fin 2 → Nat) a + S500x512.size a ≤ S500x512.size a
  h_S500x512 : 0 < S500x512.numel
  inb_S512_S512_0 : ∀ a, (![0] : Fin 1 → Nat) a + S512.size a ≤ S512.size a
  h_S512 : 0 < S512.numel
  inb_S500_S500_0 : ∀ a, (![0] : Fin 1 → Nat) a + S500.size a ≤ S500.size a
  h_S500 : 0 < S500.numel
  transposes_S512x512_p1_0_S512x512 : S512x512.Transposes [1, 0] S512x512
  shapeCasts_S512_S1x512 : S512.ShapeCasts S1x512
  broadcasts_S1x512_S40x512 : S1x512.Broadcasts S40x512
  broadcasts_S1x512_S50x512 : S1x512.Broadcasts S50x512
  shapeCasts_S40x512_S40x1x512 : S40x512.ShapeCasts S40x1x512
  shapeCasts_S50x512_S1x50x512 : S50x512.ShapeCasts S1x50x512
  broadcasts_S40x1x512_S40x50x512 : S40x1x512.Broadcasts S40x50x512
  broadcasts_S1x50x512_S40x50x512 : S1x50x512.Broadcasts S40x50x512
  shapeCasts_S40x50x512_S2000x512 : S40x50x512.ShapeCasts S2000x512
  bitsLt_bf16_f32 : FTy.bits .bf16 < FTy.bits .f32
  transposes_S500x512_p1_0_S512x500 : S500x512.Transposes [1, 0] S512x500
  shapeCasts_S2000x500_S40x50x500 : S2000x500.ShapeCasts S40x50x500
  shapeCasts_S500_S1x1x500 : S500.ShapeCasts S1x1x500
  broadcasts_S1x1x500_S40x50x500 : S1x1x500.Broadcasts S40x50x500
  inb_S1x40x50x500_S1x40x50x500_0_0_0_0 : ∀ a, (![0, 0, 0, 0] : Fin 4 → Nat) a + S1x40x50x500.size a ≤ S1x40x50x500.size a
  h_S1x40x50x500 : 0 < S1x40x50x500.numel
  shapeCasts_S1x40x50x500_S40x50x500 : S1x40x50x500.ShapeCasts S40x50x500
  shapeCasts_S40x50x500_S1x40x50x500 : S40x50x500.ShapeCasts S1x40x50x500
  dot_S40x512_S512x512_S40x512_1_0_0_1_n_n_wf : DotDims.WF S40x512 S512x512 S40x512 [1] [0] [0] [1] [] []
  dot_S50x512_S512x512_S50x512_1_0_0_1_n_n_wf : DotDims.WF S50x512 S512x512 S50x512 [1] [0] [0] [1] [] []
  dot_S2000x512_S512x500_S2000x500_1_0_0_1_n_n_wf : DotDims.WF S2000x512 S512x500 S2000x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x512.size a ≤ S8x50x512.size a
  hwx0_1 : ∀ i : grid0.Coords, EltTy.bits .f32 = 32 ∨ (Rect.block (s := S8x50x512) S1x50x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x512.size a ≤ S500x512.size a
  hwx0_6 : ∀ i : grid0.Coords, EltTy.bits .f32 = 32 ∨ (Rect.block (s := S500x512) S500x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x40x50x500.size a ≤ S8x200x50x500.size a
  hwx0_8 : ∀ i : grid0.Coords, EltTy.bits .f32 = 32 ∨ (Rect.block (s := S8x200x50x500) S1x40x50x500.size (cc0_transform_8 i) (hinb0_8 i)).WholeWords (EltTy.packing .f32)

variable [Facts₀]

def dot_S40x512_S512x512_S40x512_1_0_0_1_n_n : DotDims S40x512 S512x512 S40x512 where
  lhsContracting := [1]
  rhsContracting := [0]
  lhsNonContracting := [0]
  rhsNonContracting := [1]
  lhsBatch := []
  rhsBatch := []
  wf := dot_S40x512_S512x512_S40x512_1_0_0_1_n_n_wf
def dot_S50x512_S512x512_S50x512_1_0_0_1_n_n : DotDims S50x512 S512x512 S50x512 where
  lhsContracting := [1]
  rhsContracting := [0]
  lhsNonContracting := [0]
  rhsNonContracting := [1]
  lhsBatch := []
  rhsBatch := []
  wf := dot_S50x512_S512x512_S50x512_1_0_0_1_n_n_wf
def dot_S2000x512_S512x500_S2000x500_1_0_0_1_n_n : DotDims S2000x512 S512x500 S2000x500 where
  lhsContracting := [1]
  rhsContracting := [0]
  lhsNonContracting := [0]
  rhsNonContracting := [1]
  lhsBatch := []
  rhsBatch := []
  wf := dot_S2000x512_S512x500_S2000x500_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x50x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S500x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x40x50x500.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S8x200x1x512 : Shape := ⟨4, ![8, 200, 1, 512]⟩
abbrev S8x1x50x512 : Shape := ⟨4, ![8, 1, 50, 512]⟩
abbrev S8x200x50x512 : Shape := ⟨4, ![8, 200, 50, 512]⟩
abbrev S8x200x50x500 : Shape := ⟨4, ![8, 200, 50, 500]⟩
abbrev S1x1x1x500 : Shape := ⟨4, ![1, 1, 1, 500]⟩

abbrev nBuf : Space → Nat
  | .hbm => 26
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S8x200x512, .f32⟩
  | .hbm, ⟨9, _⟩ => ⟨S1x1x512, .f32⟩
  | .hbm, ⟨10, _⟩ => ⟨S8x200x512, .f32⟩
  | .hbm, ⟨11, _⟩ => ⟨S8x200x512, .f32⟩
  | .hbm, ⟨12, _⟩ => ⟨S8x50x512, .f32⟩
  | .hbm, ⟨13, _⟩ => ⟨S1x1x512, .f32⟩
  | .hbm, ⟨14, _⟩ => ⟨S8x50x512, .f32⟩
  | .hbm, ⟨15, _⟩ => ⟨S8x50x512, .f32⟩
  | .hbm, ⟨16, _⟩ => ⟨S8x200x1x512, .f32⟩
  | .hbm, ⟨17, _⟩ => ⟨S8x1x50x512, .f32⟩
  | .hbm, ⟨18, _⟩ => ⟨S8x200x50x512, .f32⟩
  | .hbm, ⟨19, _⟩ => ⟨S8x200x50x512, .f32⟩
  | .hbm, ⟨20, _⟩ => ⟨S8x200x50x512, .f32⟩
  | .hbm, ⟨21, _⟩ => ⟨S8x200x50x512, .f32⟩
  | .hbm, ⟨22, _⟩ => ⟨S8x200x50x500, .f32⟩
  | .hbm, ⟨23, _⟩ => ⟨S1x1x1x500, .f32⟩
  | .hbm, ⟨24, _⟩ => ⟨S8x200x50x500, .f32⟩
  | .hbm, ⟨25, _⟩ => ⟨S8x200x50x500, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x200x512_0_1_2 : S1x1x512.BroadcastsInDim S8x200x512 (![0, 1, 2] : Fin 3 → Fin S8x200x512.rank)
  bcast_S1x1x512_S8x50x512_0_1_2 : S1x1x512.BroadcastsInDim S8x50x512 (![0, 1, 2] : Fin 3 → Fin S8x50x512.rank)
  bcast_S8x200x512_S8x200x1x512_0_1_3 : S8x200x512.BroadcastsInDim S8x200x1x512 (![0, 1, 3] : Fin 3 → Fin S8x200x1x512.rank)
  bcast_S8x50x512_S8x1x50x512_0_2_3 : S8x50x512.BroadcastsInDim S8x1x50x512 (![0, 2, 3] : Fin 3 → Fin S8x1x50x512.rank)
  bcast_S8x200x1x512_S8x200x50x512_0_1_2_3 : S8x200x1x512.BroadcastsInDim S8x200x50x512 (![0, 1, 2, 3] : Fin 4 → Fin S8x200x50x512.rank)
  bcast_S8x1x50x512_S8x200x50x512_0_1_2_3 : S8x1x50x512.BroadcastsInDim S8x200x50x512 (![0, 1, 2, 3] : Fin 4 → Fin S8x200x50x512.rank)
  bcast_S500_S1x1x1x500_3 : S500.BroadcastsInDim S1x1x1x500 (![3] : Fin 1 → Fin S1x1x1x500.rank)
  bcast_S1x1x1x500_S8x200x50x500_0_1_2_3 : S1x1x1x500.BroadcastsInDim S8x200x50x500 (![0, 1, 2, 3] : Fin 4 → Fin S8x200x50x500.rank)
  dot_S8x200x512_S512x512_S8x200x512_2_1_01_0_n_n_wf : DotDims.WF S8x200x512 S512x512 S8x200x512 [2] [1] [0, 1] [0] [] []
  dot_S8x50x512_S512x512_S8x50x512_2_1_01_0_n_n_wf : DotDims.WF S8x50x512 S512x512 S8x50x512 [2] [1] [0, 1] [0] [] []
  dot_S8x200x50x512_S500x512_S8x200x50x500_3_1_012_0_n_n_wf : DotDims.WF S8x200x50x512 S500x512 S8x200x50x500 [3] [1] [0, 1, 2] [0] [] []

variable [Facts₀]

def dot_S8x200x512_S512x512_S8x200x512_2_1_01_0_n_n : DotDims S8x200x512 S512x512 S8x200x512 where
  lhsContracting := [2]
  rhsContracting := [1]
  lhsNonContracting := [0, 1]
  rhsNonContracting := [0]
  lhsBatch := []
  rhsBatch := []
  wf := dot_S8x200x512_S512x512_S8x200x512_2_1_01_0_n_n_wf
def dot_S8x50x512_S512x512_S8x50x512_2_1_01_0_n_n : DotDims S8x50x512 S512x512 S8x50x512 where
  lhsContracting := [2]
  rhsContracting := [1]
  lhsNonContracting := [0, 1]
  rhsNonContracting := [0]
  lhsBatch := []
  rhsBatch := []
  wf := dot_S8x50x512_S512x512_S8x50x512_2_1_01_0_n_n_wf
def dot_S8x200x50x512_S500x512_S8x200x50x500_3_1_012_0_n_n : DotDims S8x200x50x512 S500x512 S8x200x50x500 where
  lhsContracting := [3]
  rhsContracting := [1]
  lhsNonContracting := [0, 1, 2]
  rhsNonContracting := [0]
  lhsBatch := []
  rhsBatch := []
  wf := dot_S8x200x50x512_S500x512_S8x200x50x500_3_1_012_0_n_n_wf

class Facts : Prop extends Facts₀ where

variable [Facts]
-- ==== Proof.JoinerSpec.lean ====
/-
  The joint network's logits, as one function of the argument arrays.

  An encoder frame (a row of 512 features) and a decoder frame are each projected to 512 joint features — the row dotted
  with row j of the projection's weight matrix, plus the bias —, the two projections are added, passed through tanh, and
  the 512 joint activations are dotted with row v of the output matrix, plus the output bias: one logit per vocabulary
  entry v.  The logits array holds, at (n, t, u, v), that logit for encoder frame (n, t) and decoder frame (n, u).
  Everything is read on the extended reals; no law beyond the definitions is used, so nothing here needs finite inputs.
-/
import Idealize.ShloMosaic.PureOps.Ideal
import Idealize.ShloMosaic.Lib.ValueIdx

noncomputable section

namespace Cert.Joiner

open Idealize.ShloMosaic Idealize.ShloMosaic.ValueIdx

/-- Joint feature `j` of one frame: the frame's row dotted with row `j` of the weights, plus the bias at `j`. -/
def proj (row : Fin 512 → EReal) (W : FVec Ideal ⟨2, ![512, 512]⟩ .f32) (b : FVec Ideal ⟨1, ![512]⟩ .f32) (j : Fin 512) : EReal :=
  (∑ e : Fin 512, row e * W (ix2 j e)) + b (ix1 j)

/-- The logit of vocabulary entry `v` for an encoder row `er` and a decoder row `dr`: the tanh of the two projections' sum,
    dotted with row `v` of the output weights, plus the output bias at `v`. -/
def logit (er dr : Fin 512 → EReal) (We : FVec Ideal ⟨2, ![512, 512]⟩ .f32) (be : FVec Ideal ⟨1, ![512]⟩ .f32)
    (Wd : FVec Ideal ⟨2, ![512, 512]⟩ .f32) (bd : FVec Ideal ⟨1, ![512]⟩ .f32)
    (Wo : FVec Ideal ⟨2, ![500, 512]⟩ .f32) (bo : FVec Ideal ⟨1, ![500]⟩ .f32) (v : Fin 500) : EReal :=
  (∑ j : Fin 512, Ideal.tanh (proj er We be j + proj dr Wd bd j) * Wo (ix2 v j)) + bo (ix1 v)

/-- The logits array: at `(n, t, u, v)` the logit of `v` for encoder frame `(n, t)` and decoder frame `(n, u)`. -/
def logits (enc : FVec Ideal ⟨3, ![8, 200, 512]⟩ .f32) (dec : FVec Ideal ⟨3, ![8, 50, 512]⟩ .f32)
    (We : FVec Ideal ⟨2, ![512, 512]⟩ .f32) (be : FVec Ideal ⟨1, ![512]⟩ .f32)
    (Wd : FVec Ideal ⟨2, ![512, 512]⟩ .f32) (bd : FVec Ideal ⟨1, ![512]⟩ .f32)
    (Wo : FVec Ideal ⟨2, ![500, 512]⟩ .f32) (bo : FVec Ideal ⟨1, ![500]⟩ .f32) : FVec Ideal ⟨4, ![8, 200, 50, 500]⟩ .f32 :=
  fun i => logit (fun e => enc (ix3 (i 0) (i 1) e)) (fun d => dec (ix3 (i 0) (i 2) d)) We be Wd bd Wo bo (i 3)

end Cert.Joiner

end
-- ==== Proof.RefLogits.lean ====
/-
  The reference computes the logits: its last stage, read index by index, is the joint network's logit.

  At (n, t, u, v) the reference's product over the 512 joint features reads the tanh of the broadcast sum of the two
  projections at (n, t, j) and (n, u, j); each projection is the row's product with the weight row j plus the bias, read
  through the broadcasts that line the bias up with the rows.  Only the positions the stages read are compared.
-/
import proofs.«102330_j28372553957864_1_alg».proof.Proof.Gen.ReferenceIdeal.Read
import proofs.«102330_j28372553957864_1_alg».proof.Proof.JoinerSpec

noncomputable section

namespace Cert.ReferenceIdeal.Logits

open Cert.ReferenceIdeal Cert.ReferenceIdeal.Gen Cert.ReferenceIdeal.Read Idealize.ShloMosaic Idealize.ShloMosaic.ValueIdx

variable (x0 : (⟨S8x200x512, .f32⟩ : BufTy).Contents (Elt Ideal)) (x1 : (⟨S8x50x512, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S500x512, .f32⟩ : BufTy).Contents (Elt Ideal)) (x7 : (⟨S500, .f32⟩ : BufTy).Contents (Elt Ideal))

/-- The encoder's biased projection at `(n, t, j)` is the joint feature `j` of encoder row `(n, t)`. -/
theorem enc_proj (i : S8x200x512.Idx) :
    val_main_v3 (F := Ideal) x0 x2 x3 i = Joiner.proj (fun e => x0 (ix3 (i 0) (i 1) e)) x2 x3 (i 2) := by
  rw [val_main_v3_apply, val_main_v0_apply, val_main_v2_apply, val_main_v1_apply, Ideal.addf_def]
  unfold Joiner.proj
  refine congr (congrArg HAdd.hAdd (Finset.sum_congr rfl fun e _ => ?_)) (congrArg x3 ?_)
  · exact congr (congrArg HMul.hMul (congrArg x0 (funext fun a => by match a with | ⟨0, _⟩ => rfl | ⟨1, _⟩ => rfl | ⟨2, _⟩ => rfl)))
      (congrArg x2 (funext fun a => by match a with | ⟨0, _⟩ => rfl | ⟨1, _⟩ => rfl))
  · exact funext fun a => by match a with | ⟨0, _⟩ => rfl

/-- The decoder's biased projection at `(n, u, j)` is the joint feature `j` of decoder row `(n, u)`. -/
theorem dec_proj (i : S8x50x512.Idx) :
    val_main_v7 (F := Ideal) x1 x4 x5 i = Joiner.proj (fun d => x1 (ix3 (i 0) (i 1) d)) x4 x5 (i 2) := by
  rw [val_main_v7_apply, val_main_v4_apply, val_main_v6_apply, val_main_v5_apply, Ideal.addf_def]
  unfold Joiner.proj
  refine congr (congrArg HAdd.hAdd (Finset.sum_congr rfl fun e _ => ?_)) (congrArg x5 ?_)
  · exact congr (congrArg HMul.hMul (congrArg x1 (funext fun a => by match a with | ⟨0, _⟩ => rfl | ⟨1, _⟩ => rfl | ⟨2, _⟩ => rfl)))
      (congrArg x4 (funext fun a => by match a with | ⟨0, _⟩ => rfl | ⟨1, _⟩ => rfl))
  · exact funext fun a => by match a with | ⟨0, _⟩ => rfl

/-- The joint activation at `(n, t, u, j)`: tanh of the encoder feature of row `(n, t)` plus the decoder feature of row `(n, u)`. -/
theorem joint_act (i : S8x200x50x512.Idx) :
    val_main_v13 (F := Ideal) x0 x1 x2 x3 x4 x5 i
      = Ideal.tanh (Joiner.proj (fun e => x0 (ix3 (i 0) (i 1) e)) x2 x3 (i 3) + Joiner.proj (fun d => x1 (ix3 (i 0) (i 2) d)) x4 x5 (i 3)) := by
  rw [val_main_v13_apply, val_main_v12_apply, val_main_v10_apply, val_main_v8_apply, val_main_v11_apply, val_main_v9_apply,
    enc_proj, dec_proj]
  rfl

/-- The reference's last stage is the logits array. -/
theorem ref_is_logits : val_main_v17 (F := Ideal) x0 x1 x2 x3 x4 x5 x6 x7 = Joiner.logits x0 x1 x2 x3 x4 x5 x6 x7 := by
  funext i
  rw [val_main_v17_apply, val_main_v14_apply, val_main_v16_apply, val_main_v15_apply, Ideal.addf_def]
  unfold Joiner.logits Joiner.logit
  refine congr (congrArg HAdd.hAdd (Finset.sum_congr rfl fun j _ => ?_)) (congrArg x7 ?_)
  · rw [joint_act]
    exact congrArg _ (congrArg x6 (funext fun a => by match a with | ⟨0, _⟩ => rfl | ⟨1, _⟩ => rfl))
  · exact funext fun a => by match a with | ⟨0, _⟩ => rfl

end Cert.ReferenceIdeal.Logits

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelTile.lean ====
/-
  What the kernel body computes for one tile, index by index.

  The body projects its 40 encoder rows and its 50 decoder rows (a product with the transposed weights into a zero
  accumulator, plus the bias row broadcast over the rows), adds every encoder row to every decoder row, applies tanh, lays
  the 40 × 50 pairs out as 2000 rows (pair (a, u) is row a·50 + u), multiplies by the transposed output weights, lays the
  2000 rows out again as 40 × 50, and adds the output bias.  At (a, u, v) that is the joint network's logit of v for encoder
  row a and decoder row u of the tile.  The roundings to a narrower float format are the identity on the ideal values.
-/
import proofs.«102330_j28372553957864_1_alg».proof.Proof.Gen.KernelIdeal.Skeleton
import proofs.«102330_j28372553957864_1_alg».proof.Proof.JoinerSpec
import proofs.«102330_j28372553957864_1_alg».proof.Proof.LibPlainDot
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The biased projection of `A` rows, at row `a` and feature `j`: the row's joint feature `j`. -/
theorem feat_apply {A : Nat} (X : FVec Ideal ⟨3, ![1, A, 512]⟩ .f32) (W : FVec Ideal ⟨2, ![512, 512]⟩ .f32)
    (b : FVec Ideal ⟨1, ![512]⟩ .f32)
    (h1 : (⟨3, ![1, A, 512]⟩ : Shape).ShapeCasts ⟨2, ![A, 512]⟩) (h2 : (⟨2, ![512, 512]⟩ : Shape).Transposes [1, 0] ⟨2, ![512, 512]⟩)
    (h3 : (⟨1, ![512]⟩ : Shape).ShapeCasts ⟨2, ![1, 512]⟩) (h4 : (⟨2, ![1, 512]⟩ : Shape).Broadcasts ⟨2, ![A, 512]⟩)
    (a : Fin A) (j : Fin 512) :
    addf (matmul (F := Ideal) (DotDims.plain A 512 512) none (shapeCast ⟨2, ![A, 512]⟩ X h1) (transpose ⟨2, ![512, 512]⟩ [1, 0] W h2)
        (constant ⟨2, ![A, 512]⟩ .f32 0x00000000#32))
      (broadcastTo ⟨2, ![A, 512]⟩ (shapeCast ⟨2, ![1, 512]⟩ b h3) h4) (ix2 a j)
      = Joiner.proj (fun e => X (ix3 (0 : Fin 1) a e)) W b j := by
  show matmul (F := Ideal) (DotDims.plain A 512 512) none _ _ _ (ix2 a j) + broadcastTo ⟨2, ![A, 512]⟩ _ h4 (ix2 a j) = _
  rw [LibPlainDot.matmul_plain, broadcastTo_1b_ab_apply, shapeCast_a_1a_apply]
  unfold Joiner.proj
  refine congrArg (· + b (ix1 j)) (Finset.sum_congr rfl fun e _ => ?_)
  exact congr (congrArg HMul.hMul (shapeCast_1ab_ab_apply X h1 a e)) (transpose_ix2_apply W h2 e j)

/-- Row `a·50 + u` of the 2000 activation rows, at feature `j`: tanh of encoder row `a`'s feature plus decoder row `u`'s. -/
theorem act_apply (E : FVec Ideal ⟨2, ![40, 512]⟩ .f32) (D : FVec Ideal ⟨2, ![50, 512]⟩ .f32)
    (h1 : (⟨2, ![40, 512]⟩ : Shape).ShapeCasts ⟨3, ![40, 1, 512]⟩) (h2 : (⟨3, ![40, 1, 512]⟩ : Shape).Broadcasts ⟨3, ![40, 50, 512]⟩)
    (h3 : (⟨2, ![50, 512]⟩ : Shape).ShapeCasts ⟨3, ![1, 50, 512]⟩) (h4 : (⟨3, ![1, 50, 512]⟩ : Shape).Broadcasts ⟨3, ![40, 50, 512]⟩)
    (h5 : (⟨3, ![40, 50, 512]⟩ : Shape).ShapeCasts ⟨2, ![2000, 512]⟩)
    (a : Fin 40) (u : Fin 50) (j : Fin 512) (r : Fin 2000) (hr : r.val = a.val * 50 + u.val) :
    shapeCast ⟨2, ![2000, 512]⟩ (tanh (addf (broadcastTo ⟨3, ![40, 50, 512]⟩ (shapeCast ⟨3, ![40, 1, 512]⟩ E h1) h2)
        (broadcastTo ⟨3, ![40, 50, 512]⟩ (shapeCast ⟨3, ![1, 50, 512]⟩ D h3) h4))) h5 (ix2 r j)
      = Ideal.tanh (E (ix2 a j) + D (ix2 u j)) := by
  refine (shapeCast_apply _ h5 (ix2 r j) (ix3 a u j) (by
    rw [Shape.rowMajor_val_three, Shape.rowMajor_val_two]
    show (a.val * 50 + u.val) * 512 + j.val = r.val * 512 + j.val
    rw [hr])).trans ?_
  show Ideal.tanh (broadcastTo ⟨3, ![40, 50, 512]⟩ _ h2 (ix3 a u j) + broadcastTo ⟨3, ![40, 50, 512]⟩ _ h4 (ix3 a u j)) = _
  rw [broadcastTo_apply _ h2 (ix3 a u j) (ix3 a (0 : Fin 1) j) (fun ax => by
      match ax with
      | ⟨0, _⟩ => show a.val = if (40 : Nat) = 1 then 0 else a.val; rw [if_neg (by decide)]
      | ⟨1, _⟩ => show 0 = if (1 : Nat) = 1 then 0 else u.val; rw [if_pos rfl]
      | ⟨2, _⟩ => show j.val = if (512 : Nat) = 1 then 0 else j.val; rw [if_neg (by decide)]),
    broadcastTo_apply _ h4 (ix3 a u j) (ix3 (0 : Fin 1) u j) (fun ax => by
      match ax with
      | ⟨0, _⟩ => show 0 = if (1 : Nat) = 1 then 0 else a.val; rw [if_pos rfl]
      | ⟨1, _⟩ => show u.val = if (50 : Nat) = 1 then 0 else u.val; rw [if_neg (by decide)]
      | ⟨2, _⟩ => show j.val = if (512 : Nat) = 1 then 0 else j.val; rw [if_neg (by decide)]),
    shapeCast_apply E h1 (ix3 a (0 : Fin 1) j) (ix2 a j) (by
      rw [Shape.rowMajor_val_two, Shape.rowMajor_val_three]
      show a.val * 512 + j.val = (a.val * 1 + 0) * 512 + j.val
      omega),
    shapeCast_ab_1ab_apply D h3 (0 : Fin 1) u j]

/-- The output product, laid out as 40 × 50 rows again, plus the bias: at `(a, u, v)` the sum over the features of activation
    row `a·50 + u` times the output weight `(j, v)`, plus the bias at `v`. -/
theorem out_apply {φ₁ φ₂ : FTy} (Act : FVec Ideal ⟨2, ![2000, 512]⟩ φ₁) (Wt : FVec Ideal ⟨2, ![512, 500]⟩ φ₂) (bo : FVec Ideal ⟨1, ![500]⟩ .f32)
    (h1 : (⟨2, ![2000, 500]⟩ : Shape).ShapeCasts ⟨3, ![40, 50, 500]⟩) (h2 : (⟨1, ![500]⟩ : Shape).ShapeCasts ⟨3, ![1, 1, 500]⟩)
    (h3 : (⟨3, ![1, 1, 500]⟩ : Shape).Broadcasts ⟨3, ![40, 50, 500]⟩)
    (a : Fin 40) (u : Fin 50) (v : Fin 500) (r : Fin 2000) (hr : r.val = a.val * 50 + u.val) :
    addf (shapeCast ⟨3, ![40, 50, 500]⟩ (matmul (F := Ideal) (DotDims.plain 2000 512 500) none Act Wt (constant ⟨2, ![2000, 500]⟩ .f32 0x00000000#32)) h1)
      (broadcastTo ⟨3, ![40, 50, 500]⟩ (shapeCast ⟨3, ![1, 1, 500]⟩ bo h2) h3) (ix3 a u v)
      = (∑ j : Fin 512, Act (ix2 r j) * Wt (ix2 j v)) + bo (ix1 v) := by
  show shapeCast ⟨3, ![40, 50, 500]⟩ _ h1 (ix3 a u v) + broadcastTo ⟨3, ![40, 50, 500]⟩ _ h3 (ix3 a u v) = _
  rw [shapeCast_apply _ h1 (ix3 a u v) (ix2 r v) (by
      rw [Shape.rowMajor_val_two, Shape.rowMajor_val_three]
      show r.val * 500 + v.val = (a.val * 50 + u.val) * 500 + v.val
      rw [hr]),
    LibPlainDot.matmul_plain,
    broadcastTo_apply _ h3 (ix3 a u v) (ix3 (0 : Fin 1) (0 : Fin 1) v) (fun ax => by
      match ax with
      | ⟨0, _⟩ => show 0 = if (1 : Nat) = 1 then 0 else a.val; rw [if_pos rfl]
      | ⟨1, _⟩ => show 0 = if (1 : Nat) = 1 then 0 else u.val; rw [if_pos rfl]
      | ⟨2, _⟩ => show v.val = if (500 : Nat) = 1 then 0 else v.val; rw [if_neg (by decide)]),
    shapeCast_apply bo h2 (ix3 (0 : Fin 1) (0 : Fin 1) v) (ix1 v) (by
      rw [Shape.rowMajor_val_one, Shape.rowMajor_val_three]
      show v.val = (0 * 1 + 0) * 500 + v.val
      omega)]

/-- THE TILE: the body's result at `(a, u, v)` is the logit of `v` for the tile's encoder row `a` and decoder row `u`. -/
theorem tile_logit (P0 : Vec Ideal S1x40x512 .f32) (P1 : Vec Ideal S1x50x512 .f32) (P2 : Vec Ideal S512x512 .f32)
    (P3 : Vec Ideal S512x512 .f32) (P4 : Vec Ideal S500x512 .f32) (P5 : Vec Ideal S512 .f32) (P6 : Vec Ideal S512 .f32)
    (P7 : Vec Ideal S500 .f32) (a : Fin 40) (u : Fin 50) (v : Fin 500) :
    k0_pay2 (F := Ideal) P0 P1 P2 P3 P4 P5 P6 P7 (ix3 a u v)
      = Joiner.logit (fun e => P0 (ix3 (0 : Fin 1) a e)) (fun d => P1 (ix3 (0 : Fin 1) u d)) P2 P5 P3 P6 P4 P7 v := by
  have hr : (⟨a.val * 50 + u.val, by have := a.isLt; have := u.isLt; omega⟩ : Fin 2000).val = a.val * 50 + u.val := rfl
  unfold k0_pay2
  refine (out_apply _ _ P7 _ _ _ a u v _ hr).trans ?_
  unfold Joiner.logit
  refine congrArg (· + P7 (ix1 v)) (Finset.sum_congr rfl fun j _ => ?_)
  refine congr (congrArg HMul.hMul ?_) (transpose_ix2_apply _ _ j v)
  refine (act_apply _ _ _ _ _ _ _ a u j _ hr).trans ?_
  exact congrArg Ideal.tanh (congr (congrArg HAdd.hAdd (feat_apply P0 P2 P5 _ _ _ _ a j)) (feat_apply P1 P3 P6 _ _ _ _ u j))

end Cert.KernelIdeal.Tile

end
-- ==== Proof.LogitsArray.lean ====
/-
  From tiles to the array: after the run the kernel's result array holds the logits of the argument arrays.

  Grid point (n, b) stages batch n's encoder rows 40·b … 40·b + 39, batch n's 50 decoder rows, and the whole weight and bias
  arrays, and writes back the 40 × 50 × 500 tile of the result at batch n, encoder rows 40·b … 40·b + 39.  So the value the
  body leaves at (a, u, v) of that tile is the logits array at (n, 40·b + a, u, v); the 8 × 5 tiles cover the array (row t
  of batch n lies in the tile of point (n, t / 40)), hence the whole array is the logits array.
-/
import proofs.«102330_j28372553957864_1_alg».proof.Proof.Gen.KernelIdeal.Value
import proofs.«102330_j28372553957864_1_alg».proof.Proof.KernelTile

noncomputable section

namespace Cert.KernelIdeal.Logits

open Cert.KernelIdeal Cert.KernelIdeal.Gen Idealize.ShloMosaic Idealize.ShloMosaic.TcCoe Idealize.SL.Sem Idealize.ShloMosaic.ValueIdx
open Idealize.ShloMosaic.Pipeline (Dat)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- What the body leaves in the result's staging buffer, at `(·, a, u, v)`: the logit of `v` for row `a` of the staged encoder
    block and row `u` of the staged decoder block, under the staged weights and biases. -/
theorem block_logit (x0 : Vec Ideal S1x40x512 .f32) (x1 : Vec Ideal S1x50x512 .f32) (x2 : Vec Ideal S512x512 .f32)
    (x3 : Vec Ideal S512 .f32) (x4 : Vec Ideal S512x512 .f32) (x5 : Vec Ideal S512 .f32) (x6 : Vec Ideal S500x512 .f32)
    (x7 : Vec Ideal S500 .f32) (y : S1x40x50x500.Idx) :
    out0_8 x0 x1 x2 x3 x4 x5 x6 x7 y
      = Joiner.logit (fun e => x0 (ix3 (0 : Fin 1) (y 1) e)) (fun d => x1 (ix3 (0 : Fin 1) (y 2) d)) x2 x3 x4 x5 x6 x7 (y 3) := by
  unfold out0_8
  rw [Value.canon8_eq]
  simp only [View.ld_unit_zero (S := S1x40x512) zeros3, View.ld_unit_zero (S := S1x50x512) zeros3,
    View.ld_unit_zero (S := S512x512) zeros2, View.ld_unit_zero (S := S500x512) zeros2,
    View.ld_unit_zero (S := S512) zeros1, View.ld_unit_zero (S := S500) zeros1]
  show k0_pay2 (F := Ideal) x0 x1 x2 x4 x6 x3 x5 x7 (Value.ix8_0 y) = _
  have hy : Value.ix8_0 y = ix3 (y 1) (y 2) (y 3) :=
    funext fun a => by match a with | ⟨0, _⟩ => rfl | ⟨1, _⟩ => rfl | ⟨2, _⟩ => rfl
  rw [hy]
  exact Tile.tile_logit x0 x1 x2 x4 x6 x3 x5 x7 (y 1) (y 2) (y 3)

variable (m : (ℓ : Loc nD τ sig) → Buf (Elt Ideal) ℓ) (ρ : Dev nD → PrngReg)

/-- The printed index maps over the grid: the encoder window moves with the result's tile on the batch and row axes, the
    decoder window on the batch axis only, the weights and biases stay at block 0, and the tile's last two block indices are 0. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0 :=
  (by decide +kernel : ∀ t : Fin grid0.N, _)

/-- Every (batch, row-block) pair is some grid point's tile. -/
theorem idx_onto : ∀ (q0 : Fin 8) (q1 : Fin 5), ∃ t : Fin cfg0.N, win0_8.index t = ![q0.val, q1.val, 0, 0] :=
  (by decide +kernel : ∀ (q0 : Fin 8) (q1 : Fin 5), ∃ t : Fin grid0.N, win0_8.index t = ![q0.val, q1.val, 0, 0])

/-- A window staged whole (block index 0 on every axis) holds its whole array: the weights and biases. -/
theorem blk_Wenc (c : Dev nD) (t : Fin cfg0.N) : iblk m c 2 t = V m c main_arg2 := by
  obtain ⟨-, -, -, -, -, -, e0, e1, -⟩ := idx_facts t
  funext z
  show V m c main_arg2 (((cfg0.win 2).blk t).view.emb z) = V m c main_arg2 z
  refine congrArg _ (funext fun a => Fin.ext ?_)
  match a with
  | ⟨0, _⟩ => show win0_2.index t (0 : Fin 2) * 512 + 1 * (z 0).val = (z 0).val; omega
  | ⟨1, _⟩ => show win0_2.index t (1 : Fin 2) * 512 + 1 * (z 1).val = (z 1).val; omega

theorem blk_benc (c : Dev nD) (t : Fin cfg0.N) : iblk m c 3 t = V m c main_arg3 := by
  obtain ⟨-, -, -, -, -, -, -, -, e0, -⟩ := idx_facts t
  funext z
  show V m c main_arg3 (((cfg0.win 3).blk t).view.emb z) = V m c main_arg3 z
  refine congrArg _ (funext fun a => Fin.ext ?_)
  match a with
  | ⟨0, _⟩ => show win0_3.index t (0 : Fin 1) * 512 + 1 * (z 0).val = (z 0).val; omega

theorem blk_Wdec (c : Dev nD) (t : Fin cfg0.N) : iblk m c 4 t = V m c main_arg4 := by
  obtain ⟨-, -, -, -, -, -, -, -, -, e0, e1, -⟩ := idx_facts t
  funext z
  show V m c main_arg4 (((cfg0.win 4).blk t).view.emb z) = V m c main_arg4 z
  refine congrArg _ (funext fun a => Fin.ext ?_)
  match a with
  | ⟨0, _⟩ => show win0_4.index t (0 : Fin 2) * 512 + 1 * (z 0).val = (z 0).val; omega
  | ⟨1, _⟩ => show win0_4.index t (1 : Fin 2) * 512 + 1 * (z 1).val = (z 1).val; omega

theorem blk_bdec (c : Dev nD) (t : Fin cfg0.N) : iblk m c 5 t = V m c main_arg5 := by
  obtain ⟨-, -, -, -, -, -, -, -, -, -, -, e0, -⟩ := idx_facts t
  funext z
  show V m c main_arg5 (((cfg0.win 5).blk t).view.emb z) = V m c main_arg5 z
  refine congrArg _ (funext fun a => Fin.ext ?_)
  match a with
  | ⟨0, _⟩ => show win0_5.index t (0 : Fin 1) * 512 + 1 * (z 0).val = (z 0).val; omega

theorem blk_Wout (c : Dev nD) (t : Fin cfg0.N) : iblk m c 6 t = V m c main_arg6 := by
  obtain ⟨-, -, -, -, -, -, -, -, -, -, -, -, e0, e1, -⟩ := idx_facts t
  funext z
  show V m c main_arg6 (((cfg0.win 6).blk t).view.emb z) = V m c main_arg6 z
  refine congrArg _ (funext fun a => Fin.ext ?_)
  match a with
  | ⟨0, _⟩ => show win0_6.index t (0 : Fin 2) * 500 + 1 * (z 0).val = (z 0).val; omega
  | ⟨1, _⟩ => show win0_6.index t (1 : Fin 2) * 512 + 1 * (z 1).val = (z 1).val; omega

theorem blk_bout (c : Dev nD) (t : Fin cfg0.N) : iblk m c 7 t = V m c main_arg7 := by
  obtain ⟨-, -, -, -, -, -, -, -, -, -, -, -, -, -, e0, -⟩ := idx_facts t
  funext z
  show V m c main_arg7 (((cfg0.win 7).blk t).view.emb z) = V m c main_arg7 z
  refine congrArg _ (funext fun a => Fin.ext ?_)
  match a with
  | ⟨0, _⟩ => show win0_7.index t (0 : Fin 1) * 500 + 1 * (z 0).val = (z 0).val; omega

/-- WHAT POINT `t` WRITES BACK is tile `t` of the logits of the argument arrays as the region finds them. -/
theorem flushed_logits (c : Dev nD) (t : Fin cfg0.N) :
    (dats m 0 c).flushed 8 t = ((cfg0.win 8).blk t).view.read (Elt Ideal)
      (Joiner.logits (V m c main_arg0) (V m c main_arg1) (V m c main_arg2) (V m c main_arg3) (V m c main_arg4) (V m c main_arg5)
        (V m c main_arg6) (V m c main_arg7)) := by
  rw [Value.flushed8]
  obtain ⟨e00, e01, e02, e10, e11, e12, -, -, -, -, -, -, -, -, -, e82, e83⟩ := idx_facts t
  funext y
  refine (block_logit (iblk m c 0 t) (iblk m c 1 t) (iblk m c 2 t) (iblk m c 3 t) (iblk m c 4 t) (iblk m c 5 t) (iblk m c 6 t)
    (iblk m c 7 t) ((cfg0.win 8).xinj (grid0.coords t) y)).trans ?_
  rw [blk_Wenc, blk_benc, blk_Wdec, blk_bdec, blk_Wout, blk_bout]
  show _ = Joiner.logit (fun e => V m c main_arg0 (ix3 ((((cfg0.win 8).blk t).view.emb y) 0) ((((cfg0.win 8).blk t).view.emb y) 1) e))
      (fun d => V m c main_arg1 (ix3 ((((cfg0.win 8).blk t).view.emb y) 0) ((((cfg0.win 8).blk t).view.emb y) 2) d))
      (V m c main_arg2) (V m c main_arg3) (V m c main_arg4) (V m c main_arg5) (V m c main_arg6) (V m c main_arg7)
      ((((cfg0.win 8).blk t).view.emb y) 3)
  have hy0 : (y 0).val < 1 := (y 0).isLt
  have hy1 : (y 1).val < 40 := (y 1).isLt
  have hy2 : (y 2).val < 50 := (y 2).isLt
  have hy3 : (y 3).val < 500 := (y 3).isLt
  have henc : (fun e : Fin 512 => iblk m c 0 t (ix3 (0 : Fin 1) (((cfg0.win 8).xinj (grid0.coords t) y) 1) e))
      = fun e => V m c main_arg0 (ix3 ((((cfg0.win 8).blk t).view.emb y) 0) ((((cfg0.win 8).blk t).view.emb y) 1) e) := by
    funext e
    show V m c main_arg0 (((cfg0.win 0).blk t).view.emb (ix3 (0 : Fin 1) (((cfg0.win 8).xinj (grid0.coords t) y) 1) e)) = _
    refine congrArg _ (funext fun a => Fin.ext ?_)
    match a with
    | ⟨0, _⟩ => show win0_0.index t (0 : Fin 3) * 1 + 1 * 0 = win0_8.index t (0 : Fin 4) * 1 + 1 * (y 0).val; omega
    | ⟨1, _⟩ => show win0_0.index t (1 : Fin 3) * 40 + 1 * (y 1).val = win0_8.index t (1 : Fin 4) * 40 + 1 * (y 1).val; omega
    | ⟨2, _⟩ => show win0_0.index t (2 : Fin 3) * 512 + 1 * e.val = e.val; omega
  have hdec : (fun d : Fin 512 => iblk m c 1 t (ix3 (0 : Fin 1) (((cfg0.win 8).xinj (grid0.coords t) y) 2) d))
      = fun d => V m c main_arg1 (ix3 ((((cfg0.win 8).blk t).view.emb y) 0) ((((cfg0.win 8).blk t).view.emb y) 2) d) := by
    funext d
    show V m c main_arg1 (((cfg0.win 1).blk t).view.emb (ix3 (0 : Fin 1) (((cfg0.win 8).xinj (grid0.coords t) y) 2) d)) = _
    refine congrArg _ (funext fun a => Fin.ext ?_)
    match a with
    | ⟨0, _⟩ => show win0_1.index t (0 : Fin 3) * 1 + 1 * 0 = win0_8.index t (0 : Fin 4) * 1 + 1 * (y 0).val; omega
    | ⟨1, _⟩ => show win0_1.index t (1 : Fin 3) * 50 + 1 * (y 2).val = win0_8.index t (2 : Fin 4) * 50 + 1 * (y 2).val; omega
    | ⟨2, _⟩ => show win0_1.index t (2 : Fin 3) * 512 + 1 * d.val = d.val; omega
  have hv : (((cfg0.win 8).xinj (grid0.coords t) y) 3 : Fin 500) = (((cfg0.win 8).blk t).view.emb y) 3 :=
    Fin.ext (by show (y 3).val = win0_8.index t (3 : Fin 4) * 500 + 1 * (y 3).val; omega)
  rw [henc, hdec, hv]

/-- An index of the array is in point `t`'s tile iff each coordinate is in the tile's range on its axis. -/
theorem mem_tile (t : Fin cfg0.N) (i : S8x200x50x500.Idx) :
    i ∈ ((cfg0.win 8).blk t).view.set ↔ ∀ a : Fin 4, win0_8.index t a * S1x40x50x500.size a ≤ (i a).val
      ∧ (i a).val < win0_8.index t a * S1x40x50x500.size a + S1x40x50x500.size a := by
  show i ∈ ((View.whole main_v0).slice (win0_8.rect t)).set ↔ _
  rw [View.set_slice_whole, Rect.mem_set_unit]
  exact Iff.rfl

/-- THE TILES COVER THE ARRAY: `(n, r, u, v)` lies in the tile of the point with batch `n` and row block `r / 40`. -/
theorem cover (i : S8x200x50x500.Idx) : ∃ t : Fin cfg0.N, (cfg0.win 8).flush t = true ∧ i ∈ ((cfg0.win 8).blk t).view.set := by
  have hi0 : (i 0).val < 8 := (i 0).isLt
  have hi1 : (i 1).val < 200 := (i 1).isLt
  have hi2 : (i 2).val < 50 := (i 2).isLt
  have hi3 : (i 3).val < 500 := (i 3).isLt
  obtain ⟨t, ht⟩ := idx_onto ⟨(i 0).val, hi0⟩ ⟨(i 1).val / 40, by omega⟩
  have q0 : win0_8.index t (0 : Fin 4) = (i 0).val := congrFun ht 0
  have q1 : win0_8.index t (1 : Fin 4) = (i 1).val / 40 := congrFun ht 1
  have q2 : win0_8.index t (2 : Fin 4) = 0 := congrFun ht 2
  have q3 : win0_8.index t (3 : Fin 4) = 0 := congrFun ht 3
  refine ⟨t, flush0_8 t, ?_⟩
  rw [mem_tile]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 40 ≤ (i 1).val ∧ (i 1).val < win0_8.index t (1 : Fin 4) * 40 + 40; omega
  | ⟨2, _⟩ => show win0_8.index t (2 : Fin 4) * 50 ≤ (i 2).val ∧ (i 2).val < win0_8.index t (2 : Fin 4) * 50 + 50; omega
  | ⟨3, _⟩ => show win0_8.index t (3 : Fin 4) * 500 ≤ (i 3).val ∧ (i 3).val < win0_8.index t (3 : Fin 4) * 500 + 500; omega

/-- THE ARRAY after the run is the logits array of the arguments as launched. -/
theorem final (c : Dev nD) : (dats m 0 c).arrAt 8 cfg0.N
    = Joiner.logits (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (dats m 0 c).arrAt_eq_of_cover 8 _ (fun t _ => flushed_logits m c t) cover

/-- The kernel's run, read: the result array ends at the logits of the arguments, the arguments unchanged. -/
theorem run : θ_run defs (onTc (τ := τ) (main (F := Ideal))) ⟨m, fun _ => 0, ρ⟩ fun r => ∀ c : Dev nD,
      r.2.mem ((c : Thread nD τ).loc main_v0)
        = Joiner.logits (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Logits

end
-- ==== Proof.lean ====
/-
  The joint network's logits: the kernel against its reference.

  Both programs compute, at (n, t, u, v), the logit of vocabulary entry v for encoder frame (n, t) and decoder frame (n, u):
  each frame is projected to 512 joint features (its row dotted with a row of the projection weights, plus a bias), the two
  projections are added and passed through tanh, and the activations are dotted with row v of the output weights, plus the
  output bias (Proof/JoinerSpec.lean).  The reference does this with whole-array products and broadcasts
  (Proof/RefLogits.lean); the kernel does it tile by tile — 40 encoder rows of one batch entry against its 50 decoder rows
  per grid point, the pairs laid out as 2000 rows for the output product (Proof/KernelTile.lean) — and its 8 × 5 tiles
  cover the result (Proof/LogitsArray.lean).  On the extended reals the two are the same sums of the same products, term for
  term, so no law of arithmetic is needed and the inputs' finiteness is never used; the kernel's narrower float format for
  the output product is the identity on ideal values.  The kernel's idealization rewrote nothing, so it preserves trivially.
-/
import proofs.«102330_j28372553957864_1_alg».proof.Defs
import proofs.«102330_j28372553957864_1_alg».proof.Proof.Gen.Kernel
import proofs.«102330_j28372553957864_1_alg».proof.Proof.Gen.Kernel.Skeleton
import proofs.«102330_j28372553957864_1_alg».proof.Proof.Gen.Kernel.Launch
import proofs.«102330_j28372553957864_1_alg».proof.Proof.Gen.Kernel.Points
import proofs.«102330_j28372553957864_1_alg».proof.Proof.Gen.Kernel.Frame
import proofs.«102330_j28372553957864_1_alg».proof.Proof.Gen.KernelIdeal
import proofs.«102330_j28372553957864_1_alg».proof.Proof.Gen.KernelIdeal.Skeleton
import proofs.«102330_j28372553957864_1_alg».proof.Proof.Gen.KernelIdeal.Launch
import proofs.«102330_j28372553957864_1_alg».proof.Proof.Gen.KernelIdeal.Points
import proofs.«102330_j28372553957864_1_alg».proof.Proof.Gen.KernelIdeal.Frame
import proofs.«102330_j28372553957864_1_alg».proof.Proof.Gen.ReferenceIdeal
import proofs.«102330_j28372553957864_1_alg».proof.Proof.Gen.Pre_finite_inputs
import proofs.«102330_j28372553957864_1_alg».proof.Proof.Gen.KernelIdeal.Value
import proofs.«102330_j28372553957864_1_alg».proof.Proof.Gen.ReferenceIdeal.Run
import proofs.«102330_j28372553957864_1_alg».proof.Proof.Gen.ReferenceIdeal.Read
import proofs.«102330_j28372553957864_1_alg».proof.Proof.RefLogits
import proofs.«102330_j28372553957864_1_alg».proof.Proof.LogitsArray
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the logits array of the (agreeing) arguments. -/
theorem algebraic : Cert.algebraic_KernelIdeal_ReferenceIdeal := by
  intro m ρ m' ρ' _ hagree
  refine ⟨_, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Logits.ref_is_logits,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
